-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x28x28 : Shape := ⟨4, ![32768, 1, 28, 28]⟩
abbrev S128x784 : Shape := ⟨2, ![128, 784]⟩
abbrev S128 : Shape := ⟨1, ![128]⟩
abbrev S256x128 : Shape := ⟨2, ![256, 128]⟩
abbrev S256 : Shape := ⟨1, ![256]⟩
abbrev S10x256 : Shape := ⟨2, ![10, 256]⟩
abbrev S10 : Shape := ⟨1, ![10]⟩
abbrev S_ : Shape := ⟨0, ![]⟩

class Facts : Prop where
  bcast_S_S32768x1x28x28 : S_.BroadcastsInDim S32768x1x28x28 (![] : Fin 0 → Fin S32768x1x28x28.rank)
  reducesTo_S32768x1x28x28_S_d0_1_2_3 : S32768x1x28x28.ReducesTo [0, 1, 2, 3] S_
  h_S_ : 0 < S_.numel
  bcast_S_S128x784 : S_.BroadcastsInDim S128x784 (![] : Fin 0 → Fin S128x784.rank)
  reducesTo_S128x784_S_d0_1 : S128x784.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S256 .f32) (main_arg5 : FVec F S10x256 .f32) (main_arg6 : FVec F S10 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S10x256 .f32 := Host.absf main_arg5
  let main_cst_8 : FVec F S_ .f32 := constant S_ .f32 0x7F800000#32
  let main_v25 : FVec F S10x256 .f32 := broadcastInDim S10x256 ![] bcast_S_S10x256 main_cst_8
  let main_v26 : IVec S10x256 1 := cmpf .olt main_v24 main_v25
  let main_c_9 : IVec S_ 1 := constantI S_ 1 1#1
  let main_v27 : IVec S_ 1 := (fun x v => Host.reduce IntOp.andi x v reducesTo_S10x256_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S32768x1x28x28 .f32) (main_arg1 : FVec F S128x784 .f32) (main_arg2 : FVec F S128 .f32) (main_arg3 : FVec F S256x128 .f32) (main_arg4 : FVec F S256 .f32) (main_arg5 : FVec F S10x256 .f32) (main_arg6 : FVec F S10 .f32) : IVec S_ 1 :=
  let main_v0 : FVec F S32768x1x28x28 .f32 := Host.absf main_arg0
  let main_cst : FVec F S_ .f32 := constant S_ .f32 0x7F800000#32
  let main_v1 : FVec F S32768x1x28x28 .f32 := broadcastInDim S32768x1x28x28 ![] bcast_S_S32768x1x28x28 main_cst
  let main_v2 : IVec S32768x1x28x28 1 := cmpf .olt main_v0 main_v1
  let main_c : IVec S_ 1 := constantI S_ 1 1#1
  let main_v3 : IVec S_ 1 := (fun x v => Host.reduce IntOp.andi x v reducesTo_S32768x1x28x28_S_d0_1_2_3 h_S_) main_v2 main_c
  let main_v4 : FVec F S128x784 .f32 := Host.absf main_arg1
  let main_cst_0 : FVec F S_ .f32 := constant S_ .f32 0x7F800000#32
  let main_v5 : FVec F S128x784 .f32 := broadcastInDim S128x784 ![] bcast_S_S128x784 main_cst_0
  let main_v6 : IVec S128x784 1 := cmpf .olt main_v4 main_v5
  let main_c_1 : IVec S_ 1 := constantI S_ 1 1#1
  let main_v7 : IVec S_ 1 := (fun x v => Host.reduce IntOp.andi x v reducesTo_S128x784_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S32768x1x28x28 : Shape := ⟨4, ![32768, 1, 28, 28]⟩
abbrev S128x784 : Shape := ⟨2, ![128, 784]⟩
abbrev S128 : Shape := ⟨1, ![128]⟩
abbrev S256x128 : Shape := ⟨2, ![256, 128]⟩
abbrev S256 : Shape := ⟨1, ![256]⟩
abbrev S10x256 : Shape := ⟨2, ![10, 256]⟩
abbrev S10 : Shape := ⟨1, ![10]⟩
abbrev S32768x784 : Shape := ⟨2, ![32768, 784]⟩
abbrev S784x128 : Shape := ⟨2, ![784, 128]⟩
abbrev S128x256 : Shape := ⟨2, ![128, 256]⟩
abbrev S256x10 : Shape := ⟨2, ![256, 10]⟩
abbrev S1x128 : Shape := ⟨2, ![1, 128]⟩
abbrev S1x256 : Shape := ⟨2, ![1, 256]⟩
abbrev S1x10 : Shape := ⟨2, ![1, 10]⟩
abbrev S32768x10 : Shape := ⟨2, ![32768, 10]⟩
abbrev S2048x784 : Shape := ⟨2, ![2048, 784]⟩
abbrev S2048x10 : Shape := ⟨2, ![2048, 10]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 18
  | .vmem => 10
  | .smem => 0
  | _ => 0

abbrev bufTy : (tb : Table) → Fin (tcTables nBuf tb) → BufTy
  | .hbm, ⟨0, _⟩ => ⟨S32768x1x28x28, .f32⟩
  | .hbm, ⟨1, _⟩ => ⟨S128x784, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S10x256, .f32⟩
  | .hbm, ⟨6, _⟩ => ⟨S10, .f32⟩
  | .hbm, ⟨7, _⟩ => ⟨S32768x784, .f32⟩
  | .hbm, ⟨8, _⟩ => ⟨S128x784, .bf16⟩
  | .hbm, ⟨9, _⟩ => ⟨S784x128, .bf16⟩
  | .hbm, ⟨10, _⟩ => ⟨S256x128, .bf16⟩
  | .hbm, ⟨11, _⟩ => ⟨S128x256, .bf16⟩
  | .hbm, ⟨12, _⟩ => ⟨S10x256, .bf16⟩
  | .hbm, ⟨13, _⟩ => ⟨S256x10, .bf16⟩
  | .hbm, ⟨14, _⟩ => ⟨S1x128, .f32⟩
  | .hbm, ⟨15, _⟩ => ⟨S1x256, .f32⟩
  | .hbm, ⟨16, _⟩ => ⟨S1x10, .f32⟩
  | .hbm, ⟨17, _⟩ => ⟨S32768x10, .f32⟩
  | .local _ .vmem, ⟨0, _⟩ => ⟨S2048x784, .f32⟩
  | .local _ .vmem, ⟨1, _⟩ => ⟨S2048x784, .f32⟩
  | .local _ .vmem, ⟨2, _⟩ => ⟨S784x128, .bf16⟩
  | .local _ .vmem, ⟨3, _⟩ => ⟨S1x128, .f32⟩
  | .local _ .vmem, ⟨4, _⟩ => ⟨S128x256, .bf16⟩
  | .local _ .vmem, ⟨5, _⟩ => ⟨S1x256, .f32⟩
  | .local _ .vmem, ⟨6, _⟩ => ⟨S256x10, .bf16⟩
  | .local _ .vmem, ⟨7, _⟩ => ⟨S1x10, .f32⟩
  | .local _ .vmem, ⟨8, _⟩ => ⟨S2048x10, .f32⟩
  | .local _ .vmem, ⟨9, _⟩ => ⟨S2048x10, .f32⟩
  | _, _ => ⟨S32768x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32768x1x28x28_S32768x784 : S32768x1x28x28.ShapeCasts S32768x784
  bitsLt_bf16_f32 : FTy.bits .bf16 < FTy.bits .f32
  transposes_S128x784_S784x128_1_0 : S128x784.Transposes [1, 0] S784x128
  transposes_S256x128_S128x256_1_0 : S256x128.Transposes [1, 0] S128x256
  transposes_S10x256_S256x10_1_0 : S10x256.Transposes [1, 0] S256x10
  shapeCasts_S128_S1x128 : S128.ShapeCasts S1x128
  shapeCasts_S256_S1x256 : S256.ShapeCasts S1x256
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  shapeCasts_S2048x784_S2048x784 : S2048x784.ShapeCasts S2048x784
  inb_S784x128_S784x128_0_0 : ∀ a, (![0, 0] : Fin 2 → Nat) a + S784x128.size a ≤ S784x128.size a
  h_S784x128 : 0 < S784x128.numel
  shapeCasts_S784x128_S784x128 : S784x128.ShapeCasts S784x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S2048x784_S784x128_S2048x128_1_0_0_1_n_n_wf : DotDims.WF S2048x784 S784x128 S2048x128 [1] [0] [0] [1] [] []
  dot_S2048x128_S128x256_S2048x256_1_0_0_1_n_n_wf : DotDims.WF S2048x128 S128x256 S2048x256 [1] [0] [0] [1] [] []
  dot_S2048x256_S256x10_S2048x10_1_0_0_1_n_n_wf : DotDims.WF S2048x256 S256x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x128.size a ≤ S784x128.size a
  hwx0_1 : ∀ i : grid0.Coords, EltTy.bits .bf16 = 32 ∨ (Rect.block (s := S784x128) S784x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x10.size a ≤ S256x10.size a
  hwx0_5 : ∀ i : grid0.Coords, EltTy.bits .bf16 = 32 ∨ (Rect.block (s := S256x10) S256x10.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x10.size a ≤ S32768x10.size a
  hwx0_7 : ∀ i : grid0.Coords, EltTy.bits .f32 = 32 ∨ (Rect.block (s := S32768x10) S2048x10.size (cc0_transform_7 i) (hinb0_7 i)).WholeWords (EltTy.packing .f32)

variable [Facts₀]

def dot_S2048x784_S784x128_S2048x128_1_0_0_1_n_n : DotDims S2048x784 S784x128 S2048x128 where
  lhsContracting := [1]
  rhsContracting := [0]
  lhsNonContracting := [0]
  rhsNonContracting := [1]
  lhsBatch := []
  rhsBatch := []
  wf := dot_S2048x784_S784x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x10_S2048x10_1_0_0_1_n_n : DotDims S2048x256 S256x10 S2048x10 where
  lhsContracting := [1]
  rhsContracting := [0]
  lhsNonContracting := [0]
  rhsNonContracting := [1]
  lhsBatch := []
  rhsBatch := []
  wf := dot_S2048x256_S256x10_S2048x10_1_0_0_1_n_n_wf

abbrev win0_0 : Pipeline.Window sig grid0 :=
  Pipeline.Window.ofSpec (Memref.whole main_call0_v0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S784x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S256x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v9) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2048x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x1x28x28 : Shape := ⟨4, ![32768, 1, 28, 28]⟩
abbrev S128x784 : Shape := ⟨2, ![128, 784]⟩
abbrev S128 : Shape := ⟨1, ![128]⟩
abbrev S256x128 : Shape := ⟨2, ![256, 128]⟩
abbrev S256 : Shape := ⟨1, ![256]⟩
abbrev S10x256 : Shape := ⟨2, ![10, 256]⟩
abbrev S10 : Shape := ⟨1, ![10]⟩
abbrev S32768x784 : Shape := ⟨2, ![32768, 784]⟩
abbrev S784x128 : Shape := ⟨2, ![784, 128]⟩
abbrev S32768x128 : Shape := ⟨2, ![32768, 128]⟩
abbrev S1x128 : Shape := ⟨2, ![1, 128]⟩
abbrev S_ : Shape := ⟨0, ![]⟩
abbrev S128x256 : Shape := ⟨2, ![128, 256]⟩
abbrev S32768x256 : Shape := ⟨2, ![32768, 256]⟩
abbrev S1x256 : Shape := ⟨2, ![1, 256]⟩
abbrev S256x10 : Shape := ⟨2, ![256, 10]⟩
abbrev S32768x10 : Shape := ⟨2, ![32768, 10]⟩
abbrev S1x10 : Shape := ⟨2, ![1, 10]⟩
abbrev S32768 : Shape := ⟨1, ![32768]⟩
abbrev S32768x1 : Shape := ⟨2, ![32768, 1]⟩

abbrev nBuf : Space → Nat
  | .hbm => 44
  | .vmem => 0
  | .smem => 0
  | _ => 0

abbrev bufTy : (tb : Table) → Fin (tcTables nBuf tb) → BufTy
  | .hbm, ⟨0, _⟩ => ⟨S32768x1x28x28, .f32⟩
  | .hbm, ⟨1, _⟩ => ⟨S128x784, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S10x256, .f32⟩
  | .hbm, ⟨6, _⟩ => ⟨S10, .f32⟩
  | .hbm, ⟨7, _⟩ => ⟨S32768x784, .f32⟩
  | .hbm, ⟨8, _⟩ => ⟨S784x128, .f32⟩
  | .hbm, ⟨9, _⟩ => ⟨S32768x128, .f32⟩
  | .hbm, ⟨10, _⟩ => ⟨S1x128, .f32⟩
  | .hbm, ⟨11, _⟩ => ⟨S32768x128, .f32⟩
  | .hbm, ⟨12, _⟩ => ⟨S32768x128, .f32⟩
  | .hbm, ⟨13, _⟩ => ⟨S_, .f32⟩
  | .hbm, ⟨14, _⟩ => ⟨S32768x128, .f32⟩
  | .hbm, ⟨15, _⟩ => ⟨S32768x128, .f32⟩
  | .hbm, ⟨16, _⟩ => ⟨S128x256, .f32⟩
  | .hbm, ⟨17, _⟩ => ⟨S32768x256, .f32⟩
  | .hbm, ⟨18, _⟩ => ⟨S1x256, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S256x10, .f32⟩
  | .hbm, ⟨25, _⟩ => ⟨S32768x10, .f32⟩
  | .hbm, ⟨26, _⟩ => ⟨S1x10, .f32⟩
  | .hbm, ⟨27, _⟩ => ⟨S32768x10, .f32⟩
  | .hbm, ⟨28, _⟩ => ⟨S32768x10, .f32⟩
  | .hbm, ⟨29, _⟩ => ⟨S_, .f32⟩
  | .hbm, ⟨30, _⟩ => ⟨S32768, .f32⟩
  | .hbm, ⟨31, _⟩ => ⟨S_, .f32⟩
  | .hbm, ⟨32, _⟩ => ⟨S32768, .f32⟩
  | .hbm, ⟨33, _⟩ => ⟨S32768, .f32⟩
  | .hbm, ⟨34, _⟩ => ⟨S32768x1, .f32⟩
  | .hbm, ⟨35, _⟩ => ⟨S32768x10, .f32⟩
  | .hbm, ⟨36, _⟩ => ⟨S32768x10, .f32⟩
  | .hbm, ⟨37, _⟩ => ⟨S32768x10, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S32768x1, .f32⟩
  | .hbm, ⟨42, _⟩ => ⟨S32768x10, .f32⟩
  | .hbm, ⟨43, _⟩ => ⟨S32768x10, .f32⟩
  | _, _ => ⟨S32768x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v18 : Ref sig .tc := ⟨.hbm, 43, rfl⟩

abbrev nD : Nat := 1
abbrev τ : Topo := Topo.v7x

variable {F : FTy → Type} [FloatOps F]

class Facts₀ : Prop where
  shapeCasts_S32768x1x28x28_S32768x784 : S32768x1x28x28.ShapeCasts S32768x784
  transposes_S128x784_S784x128_1_0 : S128x784.Transposes [1, 0] S784x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  transposes_S256x128_S128x256_1_0 : S256x128.Transposes [1, 0] S128x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S10x256_S256x10_1_0 : S10x256.Transposes [1, 0] S256x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  reducesTo_S32768x10_S32768_d1 : S32768x10.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x10_0_1 : S32768x1.BroadcastsInDim S32768x10 (![0, 1] : Fin 2 → Fin S32768x10.rank)
  dot_S32768x784_S784x128_S32768x128_1_0_0_1_n_n_wf : DotDims.WF S32768x784 S784x128 S32768x128 [1] [0] [0] [1] [] []
  dot_S32768x128_S128x256_S32768x256_1_0_0_1_n_n_wf : DotDims.WF S32768x128 S128x256 S32768x256 [1] [0] [0] [1] [] []
  dot_S32768x256_S256x10_S32768x10_1_0_0_1_n_n_wf : DotDims.WF S32768x256 S256x10 S32768x10 [1] [0] [0] [1] [] []

variable [Facts₀]

def dot_S32768x784_S784x128_S32768x128_1_0_0_1_n_n : DotDims S32768x784 S784x128 S32768x128 where
  lhsContracting := [1]
  rhsContracting := [0]
  lhsNonContracting := [0]
  rhsNonContracting := [1]
  lhsBatch := []
  rhsBatch := []
  wf := dot_S32768x784_S784x128_S32768x128_1_0_0_1_n_n_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf
def dot_S32768x256_S256x10_S32768x10_1_0_0_1_n_n : DotDims S32768x256 S256x10 S32768x10 where
  lhsContracting := [1]
  rhsContracting := [0]
  lhsNonContracting := [0]
  rhsNonContracting := [1]
  lhsBatch := []
  rhsBatch := []
  wf := dot_S32768x256_S256x10_S32768x10_1_0_0_1_n_n_wf

class Facts : Prop extends Facts₀ where

variable [Facts]
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Spec.lean ====
/-
  The function both programs compute, one image and one class at a time.

  An image is a row of 784 pixels. A dense layer sends a row `h` to the row whose entry `q` is the inner product of `h`
  with row `q` of the weight matrix, plus the bias entry `q`; the rectifier replaces a value by the larger of it and
  zero. The logits of an image are three dense layers, 784 → 128 → 256 → 10, with the rectifier after the first two. The
  result at class `j` is the log-softmax of the logits: with `M` the largest logit (the maximum taken from −∞),
  `(L j − M) − log (∑ k, exp (L k − M))`. Everything is read on the extended reals, where a float literal is its word's
  value: the words are kept as words and never evaluated, the same word standing on both sides.
-/
import Idealize.ShloMosaic.PureOps.Ideal
import Idealize.ShloMosaic.Lib.ValueIdx
import Mathlib.Data.Finset.Fold

noncomputable section

namespace Cert.MlpSpec

open Idealize.ShloMosaic Idealize.ShloMosaic.ValueIdx

/-- Entry `q` of a dense layer's output row: the inner product of the input row with weight row `q`, plus bias `q`.
    The weight matrix is laid out [outputs, inputs]. -/
def dense {K N : Nat} (h : Fin K → EReal) (w : (⟨2, ![N, K]⟩ : Shape).Idx → EReal)
    (b : (⟨1, ![N]⟩ : Shape).Idx → EReal) (q : Fin N) : EReal :=
  (∑ k : Fin K, h k * w (ix2 q k)) + b (ix1 q)

/-- The rectifier: the larger of a value and the float zero. -/
def relu (a : EReal) : EReal := max a (Ideal.ofBits .f32 0x00000000#32)

/-- The ten logits of one image. -/
def logits (x : Fin 784 → EReal)
    (w1 : (⟨2, ![128, 784]⟩ : Shape).Idx → EReal) (b1 : (⟨1, ![128]⟩ : Shape).Idx → EReal)
    (w2 : (⟨2, ![256, 128]⟩ : Shape).Idx → EReal) (b2 : (⟨1, ![256]⟩ : Shape).Idx → EReal)
    (w3 : (⟨2, ![10, 256]⟩ : Shape).Idx → EReal) (b3 : (⟨1, ![10]⟩ : Shape).Idx → EReal) : Fin 10 → EReal :=
  dense (fun c => relu (dense (fun d => relu (dense x w1 b1 d)) w2 b2 c)) w3 b3

/-- The largest entry of a row of ten, the maximum taken from the float −∞. -/
def rowMax (L : Fin 10 → EReal) : EReal :=
  (Finset.univ : Finset (Fin 10)).fold max (Ideal.ofBits .f32 0xFF800000#32) L

/-- The log-softmax of a row of ten at class `j`, shifted by the row's maximum. -/
def logSoftmax (L : Fin 10 → EReal) (j : Fin 10) : EReal :=
  (L j - rowMax L) - Ideal.log (∑ k : Fin 10, Ideal.exp (L k - rowMax L))

/-- Pixel `e` of image `r` in the [images, 1, 28, 28] layout: row `e / 28`, column `e % 28`. -/
def pixel (x : (⟨4, ![32768, 1, 28, 28]⟩ : Shape).Idx → EReal) (r : Fin 32768) (e : Fin 784) : EReal :=
  x (ix4 r (0 : Fin 1) (⟨e.val / 28, by have := e.isLt; omega⟩ : Fin 28) (⟨e.val % 28, by omega⟩ : Fin 28))

/-- The result for image `r` at class `j`. -/
def out (x : (⟨4, ![32768, 1, 28, 28]⟩ : Shape).Idx → EReal)
    (w1 : (⟨2, ![128, 784]⟩ : Shape).Idx → EReal) (b1 : (⟨1, ![128]⟩ : Shape).Idx → EReal)
    (w2 : (⟨2, ![256, 128]⟩ : Shape).Idx → EReal) (b2 : (⟨1, ![256]⟩ : Shape).Idx → EReal)
    (w3 : (⟨2, ![10, 256]⟩ : Shape).Idx → EReal) (b3 : (⟨1, ![10]⟩ : Shape).Idx → EReal)
    (r : Fin 32768) (j : Fin 10) : EReal :=
  logSoftmax (logits (pixel x r) w1 b1 w2 b2 w3 b3) j

/-- The whole result array as one function of the argument arrays. -/
def G (x : (⟨4, ![32768, 1, 28, 28]⟩ : Shape).Idx → EReal)
    (w1 : (⟨2, ![128, 784]⟩ : Shape).Idx → EReal) (b1 : (⟨1, ![128]⟩ : Shape).Idx → EReal)
    (w2 : (⟨2, ![256, 128]⟩ : Shape).Idx → EReal) (b2 : (⟨1, ![256]⟩ : Shape).Idx → EReal)
    (w3 : (⟨2, ![10, 256]⟩ : Shape).Idx → EReal) (b3 : (⟨1, ![10]⟩ : Shape).Idx → EReal) :
    (⟨2, ![32768, 10]⟩ : Shape).Idx → EReal :=
  fun i => out x w1 b1 w2 b2 w3 b3 ⟨(i 0).val, idx2_lt0 i⟩ ⟨(i 1).val, idx2_lt1 i⟩

theorem G_ix2 (x : (⟨4, ![32768, 1, 28, 28]⟩ : Shape).Idx → EReal)
    (w1 : (⟨2, ![128, 784]⟩ : Shape).Idx → EReal) (b1 : (⟨1, ![128]⟩ : Shape).Idx → EReal)
    (w2 : (⟨2, ![256, 128]⟩ : Shape).Idx → EReal) (b2 : (⟨1, ![256]⟩ : Shape).Idx → EReal)
    (w3 : (⟨2, ![10, 256]⟩ : Shape).Idx → EReal) (b3 : (⟨1, ![10]⟩ : Shape).Idx → EReal)
    (r : Fin 32768) (j : Fin 10) :
    G x w1 b1 w2 b2 w3 b3 (ix2 r j) = out x w1 b1 w2 b2 w3 b3 r j := rfl

/-- A maximum taken from `a` is at least `a`, so taking the larger of it and `a` again changes nothing. -/
theorem max_init_fold (a : EReal) (L : Fin 10 → EReal) :
    max a ((Finset.univ : Finset (Fin 10)).fold max a L) = (Finset.univ : Finset (Fin 10)).fold max a L :=
  max_eq_right ((Finset.le_fold_max a).mpr (Or.inl le_rfl))

end Cert.MlpSpec

end
-- ==== Proof.KernelRow.lean ====
/-
  What the kernel body computes from its loaded blocks, one row at a time.

  The body loads a block of 2048 image rows and the whole (pre-transposed) weight matrices and bias rows. Each of its
  three matrix products into a zero accumulator is, at (p, q), the inner product of row `p` of the left block with column
  `q` of the weight block; a bias row broadcast down the block adds bias `q`; rounding to a narrower float format is the
  identity on the extended reals. So row `p` of the block's logits is `MlpSpec.logits` of row `p` of the image block, once
  the weight blocks are read as the transposes they are. The body then subtracts the row maximum (taken from −∞), and
  subtracts the logarithm of the row's sum of exponentials: `MlpSpec.logSoftmax` of the row.
  Everything is stated for arbitrary vectors of the loads' shapes, with the facts about their entries as hypotheses.
-/
import proofs.«157705_j30064771072596_2_alg».proof.Proof.Gen.KernelIdeal.Value
import proofs.«157705_j30064771072596_2_alg».proof.Proof.Spec
import proofs.«157705_j30064771072596_2_alg».proof.Proof.LibPlainContract
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Cert.MlpSpec Cert.LibPlainContract
open Idealize.ShloMosaic Idealize.ShloMosaic.ValueIdx

/-! ## Two keepdims layouts -/

/-- A vector [a] cast to a column [a, 1] reads, at (p, 0), the vector at `p`. -/
theorem shapeCast_a_a1_apply {α : Type} {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column [a, 1] broadcast to [a, b] reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

/-! ## One dense layer of a block -/

/-- A product into the zero accumulator plus a bias row broadcast down the block, at (p, q): the dense layer's entry
    `q` of row `p`, when the left block's row `p` is `h`, the right block is the transpose of `w` and the bias row is `b`. -/
theorem dense_block_apply (M K N : Nat) {φ₁ φ₂ : FTy} (X : FVec Ideal ⟨2, ![M, K]⟩ φ₁) (W : FVec Ideal ⟨2, ![K, N]⟩ φ₂)
    (B : FVec Ideal ⟨2, ![1, N]⟩ .f32) (hb : (⟨2, ![1, N]⟩ : Shape).Broadcasts ⟨2, ![M, N]⟩)
    (h : Fin K → EReal) (w : (⟨2, ![N, K]⟩ : Shape).Idx → EReal) (b : (⟨1, ![N]⟩ : Shape).Idx → EReal)
    (p : Fin M) (q : Fin N) (hX : ∀ k : Fin K, X (ix2 p k) = h k) (hW : ∀ k : Fin K, W (ix2 k q) = w (ix2 q k))
    (hB : B (ix2 (0 : Fin 1) q) = b (ix1 q)) :
    FloatOps.matmul (DotDims.plain M K N) none X W (constant ⟨2, ![M, N]⟩ .f32 0x00000000#32) (ix2 p q)
        + broadcastTo ⟨2, ![M, N]⟩ B hb (ix2 p q)
      = dense h w b q := by
  rw [matmul_plain_apply, broadcastTo_1b_ab_apply, hB]
  unfold dense
  refine congrArg (fun s => s + b (ix1 q)) (Finset.sum_congr rfl fun k _ => ?_)
  rw [hX, hW]

/-! ## The body's values, named -/

variable (P0 : FVec Ideal S2048x784 .f32) (P1 : FVec Ideal S784x128 .bf16) (P2 : FVec Ideal S1x128 .f32)
  (P3 : FVec Ideal S128x256 .bf16) (P4 : FVec Ideal S1x256 .f32) (P5 : FVec Ideal S256x10 .bf16) (P6 : FVec Ideal S1x10 .f32)

/-- The first hidden block: the image block times the first weight block, plus the bias row, rectified. -/
def hidden1 : FVec Ideal S2048x128 .f32 :=
  maximumf (addf (matmul dot_S2048x784_S784x128_S2048x128_1_0_0_1_n_n none
        (truncf .bf16 (shapeCast S2048x784 P0 shapeCasts_S2048x784_S2048x784) bitsLt_bf16_f32)
        (shapeCast S784x128 P1 shapeCasts_S784x128_S784x128) (constant S2048x128 .f32 0x00000000#32))
      (broadcastTo S2048x128 (shapeCast S1x128 P2 shapeCasts_S1x128_S1x128) broadcasts_S1x128_S2048x128))
    (broadcast S2048x128 (Scalar.ofBits .f32 0x00000000#32))

/-- The second hidden block, from the first. -/
def hidden2 (H1 : FVec Ideal S2048x128 .f32) : FVec Ideal S2048x256 .f32 :=
  maximumf (addf (matmul dot_S2048x128_S128x256_S2048x256_1_0_0_1_n_n none (truncf .bf16 H1 bitsLt_bf16_f32)
        (shapeCast S128x256 P3 shapeCasts_S128x256_S128x256) (constant S2048x256 .f32 0x00000000#32))
      (broadcastTo S2048x256 (shapeCast S1x256 P4 shapeCasts_S1x256_S1x256) broadcasts_S1x256_S2048x256))
    (broadcast S2048x256 (Scalar.ofBits .f32 0x00000000#32))

/-- The block of logits, from the second hidden block. -/
def logitsBlock (H2 : FVec Ideal S2048x256 .f32) : FVec Ideal S2048x10 .f32 :=
  addf (matmul dot_S2048x256_S256x10_S2048x10_1_0_0_1_n_n none (truncf .bf16 H2 bitsLt_bf16_f32)
      (shapeCast S256x10 P5 shapeCasts_S256x10_S256x10) (constant S2048x10 .f32 0x00000000#32))
    (broadcastTo S2048x10 (shapeCast S1x10 P6 shapeCasts_S1x10_S1x10) broadcasts_S1x10_S2048x10)

/-- A block of ten-entry rows with each row's maximum (taken from −∞) subtracted. -/
def shifted (V : FVec Ideal S2048x10 .f32) : FVec Ideal S2048x10 .f32 :=
  subf V (broadcastTo S2048x10 (shapeCast S2048x1
      (multiReduction .maximumf [1] S2048 V 0xFF800000#32 reduces_S2048x10_S2048 (.inl rfl) rfl)
      shapeCasts_S2048_S2048x1) broadcasts_S2048x1_S2048x10)

/-- The body's first payload is the shifted block of logits. -/
theorem pay2_eq : k0_pay2 (F := Ideal) P0 P1 P2 P3 P4 P5 P6 = shifted (logitsBlock P5 P6 (hidden2 P3 P4 (hidden1 P0 P1 P2))) := rfl

/-! ## The three layers, one row at a time -/

theorem hidden1_apply (xrow : Fin 784 → EReal) (w1 : (⟨2, ![128, 784]⟩ : Shape).Idx → EReal)
    (b1 : (⟨1, ![128]⟩ : Shape).Idx → EReal) (p : Fin 2048) (d : Fin 128)
    (h0 : ∀ e : Fin 784, P0 (ix2 p e) = xrow e) (h1 : ∀ (k : Fin 784) (q : Fin 128), P1 (ix2 k q) = w1 (ix2 q k))
    (h2 : ∀ q : Fin 128, P2 (ix2 (0 : Fin 1) q) = b1 (ix1 q)) :
    hidden1 P0 P1 P2 (ix2 p d) = relu (dense xrow w1 b1 d) := by
  unfold hidden1
  rw [shapeCast_self P0, shapeCast_self P1, shapeCast_self P2]
  exact congrArg (fun s => max s (Ideal.ofBits .f32 0x00000000#32))
    (dense_block_apply 2048 784 128 (truncf .bf16 P0 bitsLt_bf16_f32) P1 P2 broadcasts_S1x128_S2048x128 xrow w1 b1 p d
      h0 (fun k => h1 k d) (h2 d))

theorem hidden2_apply (H1 : FVec Ideal S2048x128 .f32) (hrow : Fin 128 → EReal)
    (w2 : (⟨2, ![256, 128]⟩ : Shape).Idx → EReal) (b2 : (⟨1, ![256]⟩ : Shape).Idx → EReal) (p : Fin 2048) (c : Fin 256)
    (hH : ∀ d : Fin 128, H1 (ix2 p d) = hrow d) (h3 : ∀ (k : Fin 128) (q : Fin 256), P3 (ix2 k q) = w2 (ix2 q k))
    (h4 : ∀ q : Fin 256, P4 (ix2 (0 : Fin 1) q) = b2 (ix1 q)) :
    hidden2 P3 P4 H1 (ix2 p c) = relu (dense hrow w2 b2 c) := by
  unfold hidden2
  rw [shapeCast_self P3, shapeCast_self P4]
  exact congrArg (fun s => max s (Ideal.ofBits .f32 0x00000000#32))
    (dense_block_apply 2048 128 256 (truncf .bf16 H1 bitsLt_bf16_f32) P3 P4 broadcasts_S1x256_S2048x256 hrow w2 b2 p c
      hH (fun k => h3 k c) (h4 c))

theorem logitsBlock_apply (H2 : FVec Ideal S2048x256 .f32) (hrow : Fin 256 → EReal)
    (w3 : (⟨2, ![10, 256]⟩ : Shape).Idx → EReal) (b3 : (⟨1, ![10]⟩ : Shape).Idx → EReal) (p : Fin 2048) (j : Fin 10)
    (hH : ∀ c : Fin 256, H2 (ix2 p c) = hrow c) (h5 : ∀ (k : Fin 256) (q : Fin 10), P5 (ix2 k q) = w3 (ix2 q k))
    (h6 : ∀ q : Fin 10, P6 (ix2 (0 : Fin 1) q) = b3 (ix1 q)) :
    logitsBlock P5 P6 H2 (ix2 p j) = dense hrow w3 b3 j := by
  unfold logitsBlock
  rw [shapeCast_self P5, shapeCast_self P6]
  exact dense_block_apply 2048 256 10 (truncf .bf16 H2 bitsLt_bf16_f32) P5 P6 broadcasts_S1x10_S2048x10 hrow w3 b3 p j
    hH (fun k => h5 k j) (h6 j)

/-! ## The row maximum and the log-softmax -/

/-- The lane reduction by maximum, at row `p`: the row's maximum taken from −∞. -/
theorem rowmax_block_apply (V : FVec Ideal S2048x10 .f32) (p : Fin 2048) :
    multiReduction .maximumf [1] S2048 V 0xFF800000#32 reduces_S2048x10_S2048 (.inl rfl) rfl (ix1 p)
      = rowMax (fun k => V (ix2 p k)) := by
  refine (Ideal.multiReduction_maximumf_single V 0xFF800000#32 reduces_S2048x10_S2048 (.inl rfl) rfl (ix1 p)).trans ?_
  have hl : (V ∘ reduces_S2048x10_S2048.lift (ix1 p)) = fun k : Fin 10 => V (ix2 p k) :=
    funext fun k => congrArg V (funext fun a => Fin.ext (by match a with | ⟨0, _⟩ => rfl | ⟨1, _⟩ => rfl))
  rw [hl]
  rfl

theorem shifted_apply (V : FVec Ideal S2048x10 .f32) (p : Fin 2048) (k : Fin 10) :
    shifted V (ix2 p k) = V (ix2 p k) - rowMax (fun k' => V (ix2 p k')) := by
  unfold shifted
  refine congrArg (fun z => V (ix2 p k) - z) ?_
  refine (broadcastTo_a1_ab_apply _ broadcasts_S2048x1_S2048x10 p k).trans ?_
  refine (shapeCast_a_a1_apply _ shapeCasts_S2048_S2048x1 p).trans ?_
  exact rowmax_block_apply V p

/-- What the body leaves at (p, j) of the output block: the log-softmax of row `p` of the block of logits. -/
theorem block_apply (p : Fin 2048) (j : Fin 10) :
    Value.E7 (F := Ideal) P0 P1 P2 P3 P4 P5 P6 (ix2 p j)
      = logSoftmax (fun k => logitsBlock P5 P6 (hidden2 P3 P4 (hidden1 P0 P1 P2)) (ix2 p k)) j := by
  have h7_0 : Value.ix7_0 (ix2 p j) = ix2 p j :=
    funext fun a => Fin.ext (by match a with | ⟨0, _⟩ => rfl | ⟨1, _⟩ => rfl)
  have h7_1 : Value.ix7_1 (ix2 p j) = ix1 p := funext fun a => Fin.ext (by match a with | ⟨0, _⟩ => rfl)
  show k0_pay2 (F := Ideal) P0 P1 P2 P3 P4 P5 P6 (Value.ix7_0 (ix2 p j))
      - Ideal.log (multiReduction (F := Ideal) .add [1] S2048 (exp (F := Ideal) (k0_pay2 (F := Ideal) P0 P1 P2 P3 P4 P5 P6)) 0x00000000#32
          reduces_S2048x10_S2048 (.inl rfl) rfl (Value.ix7_1 (ix2 p j))) = _
  rw [h7_0, h7_1, pay2_eq]
  generalize logitsBlock P5 P6 (hidden2 P3 P4 (hidden1 P0 P1 P2)) = V
  unfold logSoftmax
  rw [shifted_apply]
  refine congrArg (fun z => (V (ix2 p j) - rowMax fun k => V (ix2 p k)) - Ideal.log z) ?_
  refine (Ideal.multiReduction_add_single (exp (shifted V)) 0x00000000#32 reduces_S2048x10_S2048 (.inl rfl) rfl (ix1 p)).trans ?_
  refine Finset.sum_congr rfl fun (k : Fin 10) _ => ?_
  have e : reduces_S2048x10_S2048.lift (ix1 p) k = ix2 p k :=
    funext fun a => Fin.ext (by match a with | ⟨0, _⟩ => rfl | ⟨1, _⟩ => rfl)
  show Ideal.exp (shifted V (reduces_S2048x10_S2048.lift (ix1 p) k)) = _
  rw [e, shifted_apply]

/-- The same with the loads' entries named: when row `p` of the image block is `xrow`, the weight blocks are the
    transposes of `w1`, `w2`, `w3` and the bias rows are `b1`, `b2`, `b3`, the body leaves at (p, j) the specification's
    result for that image at class `j`. -/
theorem block_row_apply (xrow : Fin 784 → EReal)
    (w1 : (⟨2, ![128, 784]⟩ : Shape).Idx → EReal) (b1 : (⟨1, ![128]⟩ : Shape).Idx → EReal)
    (w2 : (⟨2, ![256, 128]⟩ : Shape).Idx → EReal) (b2 : (⟨1, ![256]⟩ : Shape).Idx → EReal)
    (w3 : (⟨2, ![10, 256]⟩ : Shape).Idx → EReal) (b3 : (⟨1, ![10]⟩ : Shape).Idx → EReal) (p : Fin 2048) (j : Fin 10)
    (h0 : ∀ e : Fin 784, P0 (ix2 p e) = xrow e) (h1 : ∀ (k : Fin 784) (q : Fin 128), P1 (ix2 k q) = w1 (ix2 q k))
    (h2 : ∀ q : Fin 128, P2 (ix2 (0 : Fin 1) q) = b1 (ix1 q))
    (h3 : ∀ (k : Fin 128) (q : Fin 256), P3 (ix2 k q) = w2 (ix2 q k)) (h4 : ∀ q : Fin 256, P4 (ix2 (0 : Fin 1) q) = b2 (ix1 q))
    (h5 : ∀ (k : Fin 256) (q : Fin 10), P5 (ix2 k q) = w3 (ix2 q k)) (h6 : ∀ q : Fin 10, P6 (ix2 (0 : Fin 1) q) = b3 (ix1 q)) :
    Value.E7 (F := Ideal) P0 P1 P2 P3 P4 P5 P6 (ix2 p j) = logSoftmax (logits xrow w1 b1 w2 b2 w3 b3) j := by
  rw [block_apply]
  refine congrArg (fun L => logSoftmax L j) (funext fun k => ?_)
  exact logitsBlock_apply P5 P6 (hidden2 P3 P4 (hidden1 P0 P1 P2))
    (fun c => relu (dense (fun d => relu (dense xrow w1 b1 d)) w2 b2 c)) w3 b3 p k
    (fun c => hidden2_apply P3 P4 (hidden1 P0 P1 P2) (fun d => relu (dense xrow w1 b1 d)) w2 b2 p c
      (fun d => hidden1_apply P0 P1 P2 xrow w1 b1 p d h0 h1 h2) h3 h4)
    h5 h6

end Cert.KernelIdeal.RowValue

end
-- ==== Proof.KernelBlocks.lean ====
/-
  From the blocks to the whole result array.

  Before the region the host has flattened the images to [32768, 784], rounded each weight matrix to the narrower
  float format (the identity on the extended reals) and transposed it, and recast each bias as one row. Grid point `t`
  stages rows `2048 t … 2048 t + 2047` of the flattened images and, whole, every weight and bias array, and writes back
  rows `2048 t … 2048 t + 2047` of the result. So what point `t` writes back is block `t` of the specification `G` of the
  argument arrays (by the row-at-a-time reading of the body), the sixteen blocks cover the result array, and after the
  run the result array is `G` of the argument arrays.
-/
import proofs.«157705_j30064771072596_2_alg».proof.Proof.Gen.KernelIdeal.Value
import proofs.«157705_j30064771072596_2_alg».proof.Proof.KernelRow
import Idealize.ShloMosaic.Lib.StableHlo.Run
import Idealize.ShloMosaic.Lib.ValueLayout
import Idealize.ShloMosaic.Lib.Pipeline.Value

noncomputable section

namespace Cert.KernelIdeal.ArrayValue

open Cert.KernelIdeal Cert.KernelIdeal.Gen Cert.MlpSpec Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds, read at an index -/

/-- The flattened images at (r, e): pixel `e` of image `r`. -/
theorem images_apply (c : Dev nD) (r : Fin 32768) (e : Fin 784) :
    V m c main_call0_v0 (ix2 r e) = pixel (m ((c : Thread nD τ).loc main_arg0)) r e := by
  have hV : (V m c main_call0_v0 : S32768x784.Idx → EReal)
      = shapeCast S32768x784 (m ((c : Thread nD τ).loc main_arg0)) shapeCasts_S32768x1x28x28_S32768x784 := by
    dsimp only [Gen.V, Gen.hostOps0]; after_results; rfl
  rw [hV]
  unfold pixel
  refine shapeCast_apply (s := S32768x1x28x28) (t := S32768x784) _ shapeCasts_S32768x1x28x28_S32768x784 (ix2 r e)
    (ix4 r (0 : Fin 1) (⟨e.val / 28, by have := e.isLt; omega⟩ : Fin 28) (⟨e.val % 28, by omega⟩ : Fin 28)) ?_
  rw [Shape.rowMajor_val_four, Shape.rowMajor_val_two]
  have he := e.isLt
  show ((r.val * 1 + 0) * 28 + e.val / 28) * 28 + e.val % 28 = r.val * 784 + e.val
  omega

/-- The first weight array the region finds, at (k, q): the weight matrix at (q, k). -/
theorem w1t_apply (c : Dev nD) (k : Fin 784) (q : Fin 128) : V m c main_call0_v2 (ix2 k q) = (m ((c : Thread nD τ).loc main_arg1)) (ix2 q k) := by
  have hV : (V m c main_call0_v2 : S784x128.Idx → EReal)
      = transpose S784x128 [1, 0] (truncf (F := Ideal) .bf16 ((m ((c : Thread nD τ).loc main_arg1)) : FVec Ideal S128x784 .f32) bitsLt_bf16_f32) transposes_S128x784_S784x128_1_0 := by
    dsimp only [Gen.V, Gen.hostOps0]; after_results; rfl
  rw [hV]
  exact transpose_ix2_apply _ transposes_S128x784_S784x128_1_0 k q

theorem w2t_apply (c : Dev nD) (k : Fin 128) (q : Fin 256) : V m c main_call0_v4 (ix2 k q) = (m ((c : Thread nD τ).loc main_arg3)) (ix2 q k) := by
  have hV : (V m c main_call0_v4 : S128x256.Idx → EReal)
      = transpose S128x256 [1, 0] (truncf (F := Ideal) .bf16 ((m ((c : Thread nD τ).loc main_arg3)) : FVec Ideal S256x128 .f32) bitsLt_bf16_f32) transposes_S256x128_S128x256_1_0 := by
    dsimp only [Gen.V, Gen.hostOps0]; after_results; rfl
  rw [hV]
  exact transpose_ix2_apply _ transposes_S256x128_S128x256_1_0 k q

theorem w3t_apply (c : Dev nD) (k : Fin 256) (q : Fin 10) : V m c main_call0_v6 (ix2 k q) = (m ((c : Thread nD τ).loc main_arg5)) (ix2 q k) := by
  have hV : (V m c main_call0_v6 : S256x10.Idx → EReal)
      = transpose S256x10 [1, 0] (truncf (F := Ideal) .bf16 ((m ((c : Thread nD τ).loc main_arg5)) : FVec Ideal S10x256 .f32) bitsLt_bf16_f32) transposes_S10x256_S256x10_1_0 := by
    dsimp only [Gen.V, Gen.hostOps0]; after_results; rfl
  rw [hV]
  exact transpose_ix2_apply _ transposes_S10x256_S256x10_1_0 k q

/-- The first bias row the region finds, at (0, q): bias entry `q`. -/
theorem b1_apply (c : Dev nD) (q : Fin 128) : V m c main_call0_v7 (ix2 (0 : Fin 1) q) = (m ((c : Thread nD τ).loc main_arg2)) (ix1 q) := by
  have hV : (V m c main_call0_v7 : S1x128.Idx → EReal) = shapeCast S1x128 (m ((c : Thread nD τ).loc main_arg2)) shapeCasts_S128_S1x128 := by
    dsimp only [Gen.V, Gen.hostOps0]; after_results; rfl
  rw [hV]
  exact shapeCast_a_1a_apply _ shapeCasts_S128_S1x128 (0 : Fin 1) q

theorem b2_apply (c : Dev nD) (q : Fin 256) : V m c main_call0_v8 (ix2 (0 : Fin 1) q) = (m ((c : Thread nD τ).loc main_arg4)) (ix1 q) := by
  have hV : (V m c main_call0_v8 : S1x256.Idx → EReal) = shapeCast S1x256 (m ((c : Thread nD τ).loc main_arg4)) shapeCasts_S256_S1x256 := by
    dsimp only [Gen.V, Gen.hostOps0]; after_results; rfl
  rw [hV]
  exact shapeCast_a_1a_apply _ shapeCasts_S256_S1x256 (0 : Fin 1) q

theorem b3_apply (c : Dev nD) (q : Fin 10) : V m c main_call0_v9 (ix2 (0 : Fin 1) q) = (m ((c : Thread nD τ).loc main_arg6)) (ix1 q) := by
  have hV : (V m c main_call0_v9 : S1x10.Idx → EReal) = shapeCast S1x10 (m ((c : Thread nD τ).loc main_arg6)) shapeCasts_S10_S1x10 := by
    dsimp only [Gen.V, Gen.hostOps0]; after_results; rfl
  rw [hV]
  exact shapeCast_a_1a_apply _ shapeCasts_S10_S1x10 (0 : Fin 1) q

/-! ## The windows' blocks -/

/-- The printed index maps over the sixteen grid points: the image and result windows move one block of rows per
    point; every weight and bias window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 16 := lt_of_lt_of_eq t.isLt N_0

/-- Row `p` of the image block at point `t` is image `2048 t + p`. -/
theorem images_block (c : Dev nD) (t : Fin cfg0.N) (p : Fin 2048) (e : Fin 784) (hr : t.val * 2048 + p.val < 32768) :
    iblk m c 0 t (ix2 p e) = pixel (m ((c : Thread nD τ).loc main_arg0)) ⟨t.val * 2048 + p.val, hr⟩ e := by
  obtain ⟨a0, a1, -⟩ := idx_facts t
  show V m c main_call0_v0 (((cfg0.win 0).blk t).view.emb (ix2 p e)) = _
  have hemb : ((cfg0.win 0).blk t).view.emb (ix2 p e) = ix2 (⟨t.val * 2048 + p.val, hr⟩ : Fin 32768) e :=
    funext fun a => Fin.ext (by
      match a with
      | ⟨0, _⟩ => show win0_0.index t (0 : Fin 2) * 2048 + 1 * p.val = t.val * 2048 + p.val; omega
      | ⟨1, _⟩ => show win0_0.index t (1 : Fin 2) * 784 + 1 * e.val = e.val; omega)
  rw [hemb]
  exact images_apply m c _ e

theorem w1t_block (c : Dev nD) (t : Fin cfg0.N) (k : Fin 784) (q : Fin 128) : iblk m c 1 t (ix2 k q) = (m ((c : Thread nD τ).loc main_arg1)) (ix2 q k) := by
  obtain ⟨-, -, b0, b1, -⟩ := idx_facts t
  show V m c main_call0_v2 (((cfg0.win 1).blk t).view.emb (ix2 k q)) = _
  have hemb : ((cfg0.win 1).blk t).view.emb (ix2 k q) = ix2 k q :=
    funext fun a => Fin.ext (by
      match a with
      | ⟨0, _⟩ => show win0_1.index t (0 : Fin 2) * 784 + 1 * k.val = k.val; omega
      | ⟨1, _⟩ => show win0_1.index t (1 : Fin 2) * 128 + 1 * q.val = q.val; omega)
  rw [hemb]
  exact w1t_apply m c k q

theorem b1_block (c : Dev nD) (t : Fin cfg0.N) (q : Fin 128) : iblk m c 2 t (ix2 (0 : Fin 1) q) = (m ((c : Thread nD τ).loc main_arg2)) (ix1 q) := by
  obtain ⟨-, -, -, -, c0, c1, -⟩ := idx_facts t
  show V m c main_call0_v7 (((cfg0.win 2).blk t).view.emb (ix2 (0 : Fin 1) q)) = _
  have hemb : ((cfg0.win 2).blk t).view.emb (ix2 (0 : Fin 1) q) = ix2 (0 : Fin 1) q :=
    funext fun a => Fin.ext (by
      match a with
      | ⟨0, _⟩ => show win0_2.index t (0 : Fin 2) * 1 + 1 * 0 = 0; omega
      | ⟨1, _⟩ => show win0_2.index t (1 : Fin 2) * 128 + 1 * q.val = q.val; omega)
  rw [hemb]
  exact b1_apply m c q

theorem w2t_block (c : Dev nD) (t : Fin cfg0.N) (k : Fin 128) (q : Fin 256) : iblk m c 3 t (ix2 k q) = (m ((c : Thread nD τ).loc main_arg3)) (ix2 q k) := by
  obtain ⟨-, -, -, -, -, -, d0, d1, -⟩ := idx_facts t
  show V m c main_call0_v4 (((cfg0.win 3).blk t).view.emb (ix2 k q)) = _
  have hemb : ((cfg0.win 3).blk t).view.emb (ix2 k q) = ix2 k q :=
    funext fun a => Fin.ext (by
      match a with
      | ⟨0, _⟩ => show win0_3.index t (0 : Fin 2) * 128 + 1 * k.val = k.val; omega
      | ⟨1, _⟩ => show win0_3.index t (1 : Fin 2) * 256 + 1 * q.val = q.val; omega)
  rw [hemb]
  exact w2t_apply m c k q

theorem b2_block (c : Dev nD) (t : Fin cfg0.N) (q : Fin 256) : iblk m c 4 t (ix2 (0 : Fin 1) q) = (m ((c : Thread nD τ).loc main_arg4)) (ix1 q) := by
  obtain ⟨-, -, -, -, -, -, -, -, e0, e1, -⟩ := idx_facts t
  show V m c main_call0_v8 (((cfg0.win 4).blk t).view.emb (ix2 (0 : Fin 1) q)) = _
  have hemb : ((cfg0.win 4).blk t).view.emb (ix2 (0 : Fin 1) q) = ix2 (0 : Fin 1) q :=
    funext fun a => Fin.ext (by
      match a with
      | ⟨0, _⟩ => show win0_4.index t (0 : Fin 2) * 1 + 1 * 0 = 0; omega
      | ⟨1, _⟩ => show win0_4.index t (1 : Fin 2) * 256 + 1 * q.val = q.val; omega)
  rw [hemb]
  exact b2_apply m c q

theorem w3t_block (c : Dev nD) (t : Fin cfg0.N) (k : Fin 256) (q : Fin 10) : iblk m c 5 t (ix2 k q) = (m ((c : Thread nD τ).loc main_arg5)) (ix2 q k) := by
  obtain ⟨-, -, -, -, -, -, -, -, -, -, f0, f1, -⟩ := idx_facts t
  show V m c main_call0_v6 (((cfg0.win 5).blk t).view.emb (ix2 k q)) = _
  have hemb : ((cfg0.win 5).blk t).view.emb (ix2 k q) = ix2 k q :=
    funext fun a => Fin.ext (by
      match a with
      | ⟨0, _⟩ => show win0_5.index t (0 : Fin 2) * 256 + 1 * k.val = k.val; omega
      | ⟨1, _⟩ => show win0_5.index t (1 : Fin 2) * 10 + 1 * q.val = q.val; omega)
  rw [hemb]
  exact w3t_apply m c k q

theorem b3_block (c : Dev nD) (t : Fin cfg0.N) (q : Fin 10) : iblk m c 6 t (ix2 (0 : Fin 1) q) = (m ((c : Thread nD τ).loc main_arg6)) (ix1 q) := by
  obtain ⟨-, -, -, -, -, -, -, -, -, -, -, -, g0, g1, -⟩ := idx_facts t
  show V m c main_call0_v9 (((cfg0.win 6).blk t).view.emb (ix2 (0 : Fin 1) q)) = _
  have hemb : ((cfg0.win 6).blk t).view.emb (ix2 (0 : Fin 1) q) = ix2 (0 : Fin 1) q :=
    funext fun a => Fin.ext (by
      match a with
      | ⟨0, _⟩ => show win0_6.index t (0 : Fin 2) * 1 + 1 * 0 = 0; omega
      | ⟨1, _⟩ => show win0_6.index t (1 : Fin 2) * 10 + 1 * q.val = q.val; omega)
  rw [hemb]
  exact b3_apply m c q

/-! ## What a point writes back, the cover, and the array after the run -/

theorem hz : (![0, 0] : Fin 2 → Nat) = fun _ => 0 := funext fun a => by fin_cases a <;> rfl

/-- What point `t` writes back is block `t` of `G` of the argument arrays. -/
theorem flushed_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  unfold out0_7
  simp only [View.ld_unit_zero (S := S2048x784) hz, View.ld_unit_zero (S := S784x128) hz, View.ld_unit_zero (S := S1x128) hz,
    View.ld_unit_zero (S := S128x256) hz, View.ld_unit_zero (S := S1x256) hz, View.ld_unit_zero (S := S256x10) hz,
    View.ld_unit_zero (S := S1x10) hz]
  funext (y : S2048x10.Idx)
  obtain ⟨p, j, rfl⟩ : ∃ (p : Fin 2048) (j : Fin 10), y = ix2 p j := ⟨y 0, y 1, eq_ix2 y⟩
  have ht := point_lt t
  have hr : t.val * 2048 + p.val < 32768 := by have := p.isLt; omega
  obtain ⟨-, -, -, -, -, -, -, -, -, -, -, -, -, -, o0, o1⟩ := idx_facts t
  show _ = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 7).blk t).view.emb (ix2 p j))
  have hemb : ((cfg0.win 7).blk t).view.emb (ix2 p j) = ix2 (⟨t.val * 2048 + p.val, hr⟩ : Fin 32768) j :=
    funext fun a => Fin.ext (by
      match a with
      | ⟨0, _⟩ => show win0_7.index t (0 : Fin 2) * 2048 + 1 * p.val = t.val * 2048 + p.val; omega
      | ⟨1, _⟩ => show win0_7.index t (1 : Fin 2) * 10 + 1 * j.val = j.val; omega)
  rw [hemb, G_ix2]
  refine (Value.canon7_eq (F := Ideal) (iblk m c 0 t) (iblk m c 1 t) (iblk m c 2 t) (iblk m c 3 t) (iblk m c 4 t) (iblk m c 5 t) (iblk m c 6 t) (ix2 p j)).trans ?_
  unfold out
  exact RowValue.block_row_apply (iblk m c 0 t) (iblk m c 1 t) (iblk m c 2 t) (iblk m c 3 t) (iblk m c 4 t) (iblk m c 5 t) (iblk m c 6 t)
    (pixel (m ((c : Thread nD τ).loc main_arg0)) ⟨t.val * 2048 + p.val, hr⟩) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p j
    (fun e => images_block m c t p e hr) (fun k q => w1t_block m c t k q) (fun q => b1_block m c t q)
    (fun k q => w2t_block m c t k q) (fun q => b2_block m c t q) (fun k q => w3t_block m c t k q) (fun q => b3_block m c t q)

/-- An index of the result array is in point `t`'s block iff each coordinate is in the block's range on its axis. -/
theorem mem_blk (t : Fin cfg0.N) (i : S32768x10.Idx) :
    i ∈ ((cfg0.win 7).blk t).view.set ↔ ∀ a : Fin 2, win0_7.index t a * S2048x10.size a ≤ (i a).val
      ∧ (i a).val < win0_7.index t a * S2048x10.size a + S2048x10.size a := by
  show i ∈ ((View.whole main_v0).slice (win0_7.rect t)).set ↔ _
  rw [View.set_slice_whole, Rect.mem_set_unit]
  exact Iff.rfl

/-- Every index of the result array is in the block of the point that holds its row: row `r` is in block `r / 2048`. -/
theorem cover (i : S32768x10.Idx) : ∃ t : Fin cfg0.N, (cfg0.win 7).flush t = true ∧ i ∈ ((cfg0.win 7).blk t).view.set := by
  have hi0 : (i 0).val < 32768 := (i 0).isLt
  have hi1 : (i 1).val < 10 := (i 1).isLt
  have hN : cfg0.N = 16 := N_0
  have hlt : (i 0).val / 2048 < cfg0.N := by rw [hN]; omega
  obtain ⟨-, -, -, -, -, -, -, -, -, -, -, -, -, -, o0, o1⟩ := idx_facts ⟨(i 0).val / 2048, hlt⟩
  have o0' : win0_7.index ⟨(i 0).val / 2048, hlt⟩ (0 : Fin 2) = (i 0).val / 2048 := o0
  refine ⟨⟨(i 0).val / 2048, hlt⟩, flush0_7 _, ?_⟩
  rw [mem_blk]
  intro a
  match a with
  | ⟨0, _⟩ =>
    show win0_7.index ⟨(i 0).val / 2048, hlt⟩ (0 : Fin 2) * 2048 ≤ (i 0).val
      ∧ (i 0).val < win0_7.index ⟨(i 0).val / 2048, hlt⟩ (0 : Fin 2) * 2048 + 2048
    omega
  | ⟨1, _⟩ =>
    show win0_7.index ⟨(i 0).val / 2048, hlt⟩ (1 : Fin 2) * 10 ≤ (i 1).val
      ∧ (i 1).val < win0_7.index ⟨(i 0).val / 2048, hlt⟩ (1 : Fin 2) * 10 + 10
    omega

/-- The result array after the run is `G` of the argument arrays. -/
theorem final (c : Dev nD) : (dats m 0 c).arrAt 7 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-- The kernel's run: every weakly fair execution terminates with the result array at `G` of the argument arrays and
    the arguments unchanged. -/
theorem run : θ_run defs (onTc (τ := τ) (main (F := Ideal))) ⟨m, fun _ => 0, ρ⟩ fun r => ∀ c : Dev nD,
      r.2.mem ((c : Thread nD τ).loc main_v0) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.ArrayValue

end
-- ==== Proof.RefIsSpec.lean ====
/-
  The reference's result array is the specification `MlpSpec.G` of its argument arrays.

  Read one stage at a time: the flattened image row `r` is `pixel x r` (the reshape keeps the row-major position, and
  position `r · 784 + e` of the four-axis array is image `r`, row `e / 28`, column `e % 28`); each transposed weight
  matrix read at (k, q) is the weight matrix at (q, k), so each host product at (r, q) is the inner product of row `r`
  with weight row `q`; the biases are broadcast along the rows. The log-softmax stages take the row maximum from −∞ and
  then once more the larger of it and −∞, which changes nothing (`max_init_fold`), and the sum of exponentials starts
  from the float zero, which is the real zero.
-/
import proofs.«157705_j30064771072596_2_alg».proof.Proof.RefRead
import proofs.«157705_j30064771072596_2_alg».proof.Proof.Spec

noncomputable section

namespace Cert.ReferenceIdeal.RefValue

open Cert.ReferenceIdeal Cert.ReferenceIdeal.Gen Cert.ReferenceIdeal.Read Cert.MlpSpec Idealize.ShloMosaic Idealize.ShloMosaic.ValueIdx

variable (x0 : (⟨S32768x1x28x28, .f32⟩ : BufTy).Contents (Elt Ideal)) (x1 : (⟨S128x784, .f32⟩ : BufTy).Contents (Elt Ideal))
  (x2 : (⟨S128, .f32⟩ : BufTy).Contents (Elt Ideal)) (x3 : (⟨S256x128, .f32⟩ : BufTy).Contents (Elt Ideal))
  (x4 : (⟨S256, .f32⟩ : BufTy).Contents (Elt Ideal)) (x5 : (⟨S10x256, .f32⟩ : BufTy).Contents (Elt Ideal))
  (x6 : (⟨S10, .f32⟩ : BufTy).Contents (Elt Ideal))

/-! ## The layout stages -/

/-- The flattened images at (r, e): pixel `e` of image `r`. -/
theorem flat_apply (r : Fin 32768) (e : Fin 784) : val_main_v0 (F := Ideal) x0 (ix2 r e) = pixel x0 r e := by
  rw [val_main_v0_apply]
  unfold pixel
  refine congrArg x0 (funext fun a => Fin.ext ?_)
  have he := e.isLt
  match a with
  | ⟨0, _⟩ => show (r.val * 784 + e.val) / 784 = r.val; omega
  | ⟨1, _⟩ => rfl
  | ⟨2, _⟩ => show (r.val * 784 + e.val) / 28 % 28 = e.val / 28; omega
  | ⟨3, _⟩ => show (r.val * 784 + e.val) % 28 = e.val % 28; omega

/-- The transposed first weight matrix at (k, q) is the weight matrix at (q, k). -/
theorem w1t_apply (k : Fin 784) (q : Fin 128) : val_main_v1 (F := Ideal) x1 (ix2 k q) = x1 (ix2 q k) := by
  rw [val_main_v1_apply]
  exact congrArg x1 (funext fun a => Fin.ext (by match a with | ⟨0, _⟩ => rfl | ⟨1, _⟩ => rfl))

theorem w2t_apply (k : Fin 128) (q : Fin 256) : val_main_v7 (F := Ideal) x3 (ix2 k q) = x3 (ix2 q k) := by
  rw [val_main_v7_apply]
  exact congrArg x3 (funext fun a => Fin.ext (by match a with | ⟨0, _⟩ => rfl | ⟨1, _⟩ => rfl))

theorem w3t_apply (k : Fin 256) (q : Fin 10) : val_main_v13 (F := Ideal) x5 (ix2 k q) = x5 (ix2 q k) := by
  rw [val_main_v13_apply]
  exact congrArg x5 (funext fun a => Fin.ext (by match a with | ⟨0, _⟩ => rfl | ⟨1, _⟩ => rfl))

/-- The first bias, broadcast along the rows, at (r, q) is bias entry `q`. -/
theorem bias1_apply (r : Fin 32768) (q : Fin 128) : val_main_v4 (F := Ideal) x2 (ix2 r q) = x2 (ix1 q) := by
  rw [val_main_v4_apply, val_main_v3_apply]
  exact congrArg x2 (funext fun a => Fin.ext (by match a with | ⟨0, _⟩ => rfl))

theorem bias2_apply (r : Fin 32768) (q : Fin 256) : val_main_v10 (F := Ideal) x4 (ix2 r q) = x4 (ix1 q) := by
  rw [val_main_v10_apply, val_main_v9_apply]
  exact congrArg x4 (funext fun a => Fin.ext (by match a with | ⟨0, _⟩ => rfl))

theorem bias3_apply (r : Fin 32768) (q : Fin 10) : val_main_v16 (F := Ideal) x6 (ix2 r q) = x6 (ix1 q) := by
  rw [val_main_v16_apply, val_main_v15_apply]
  exact congrArg x6 (funext fun a => Fin.ext (by match a with | ⟨0, _⟩ => rfl))

/-- The rectifiers' broadcast zero is the float zero at every index. -/
theorem zero1_apply (i : S32768x128.Idx) : val_main_call0_v0 (F := Ideal) i = Ideal.ofBits .f32 0x00000000#32 := by
  rw [val_main_call0_v0_apply, val_main_call0_cst_apply]; rfl

theorem zero2_apply (i : S32768x256.Idx) : val_main_call1_v0 (F := Ideal) i = Ideal.ofBits .f32 0x00000000#32 := by
  rw [val_main_call1_v0_apply, val_main_call1_cst_apply]; rfl

/-! ## The three layers -/

/-- The first hidden layer at (r, d). -/
theorem h1_apply (r : Fin 32768) (d : Fin 128) :
    val_main_v6 (F := Ideal) x0 x1 x2 (ix2 r d) = relu (dense (pixel x0 r) x1 x2 d) := by
  rw [val_main_v6_apply, val_main_v5_apply, val_main_v2_apply, bias1_apply, zero1_apply]
  show max ((∑ k : Fin 784, val_main_v0 (F := Ideal) x0 (lidx_main_v2 (ix2 r d) k) * val_main_v1 (F := Ideal) x1 (ridx_main_v2 (ix2 r d) k)) + x2 (ix1 d)) (Ideal.ofBits .f32 0x00000000#32)
    = max ((∑ k : Fin 784, pixel x0 r k * x1 (ix2 d k)) + x2 (ix1 d)) (Ideal.ofBits .f32 0x00000000#32)
  refine congrArg (fun s => max (s + x2 (ix1 d)) (Ideal.ofBits .f32 0x00000000#32)) (Finset.sum_congr rfl fun k _ => ?_)
  have el : lidx_main_v2 (ix2 r d) k = ix2 r k := funext fun a => Fin.ext (by match a with | ⟨0, _⟩ => rfl | ⟨1, _⟩ => rfl)
  have er : ridx_main_v2 (ix2 r d) k = ix2 k d := funext fun a => Fin.ext (by match a with | ⟨0, _⟩ => rfl | ⟨1, _⟩ => rfl)
  rw [el, er, flat_apply, w1t_apply]

/-- The second hidden layer at (r, c). -/
theorem h2_apply (r : Fin 32768) (c : Fin 256) :
    val_main_v12 (F := Ideal) x0 x1 x2 x3 x4 (ix2 r c)
      = relu (dense (fun d => relu (dense (pixel x0 r) x1 x2 d)) x3 x4 c) := by
  rw [val_main_v12_apply, val_main_v11_apply, val_main_v8_apply, bias2_apply, zero2_apply]
  show max ((∑ k : Fin 128, val_main_v6 (F := Ideal) x0 x1 x2 (lidx_main_v8 (ix2 r c) k) * val_main_v7 (F := Ideal) x3 (ridx_main_v8 (ix2 r c) k)) + x4 (ix1 c)) (Ideal.ofBits .f32 0x00000000#32)
    = max ((∑ k : Fin 128, relu (dense (pixel x0 r) x1 x2 k) * x3 (ix2 c k)) + x4 (ix1 c)) (Ideal.ofBits .f32 0x00000000#32)
  refine congrArg (fun s => max (s + x4 (ix1 c)) (Ideal.ofBits .f32 0x00000000#32)) (Finset.sum_congr rfl fun k _ => ?_)
  have el : lidx_main_v8 (ix2 r c) k = ix2 r k := funext fun a => Fin.ext (by match a with | ⟨0, _⟩ => rfl | ⟨1, _⟩ => rfl)
  have er : ridx_main_v8 (ix2 r c) k = ix2 k c := funext fun a => Fin.ext (by match a with | ⟨0, _⟩ => rfl | ⟨1, _⟩ => rfl)
  rw [el, er, h1_apply, w2t_apply]

/-- The logits at (r, j). -/
theorem logits_apply (r : Fin 32768) (j : Fin 10) :
    val_main_v17 (F := Ideal) x0 x1 x2 x3 x4 x5 x6 (ix2 r j) = logits (pixel x0 r) x1 x2 x3 x4 x5 x6 j := by
  rw [val_main_v17_apply, val_main_v14_apply, bias3_apply]
  show (∑ k : Fin 256, val_main_v12 (F := Ideal) x0 x1 x2 x3 x4 (lidx_main_v14 (ix2 r j) k) * val_main_v13 (F := Ideal) x5 (ridx_main_v14 (ix2 r j) k)) + x6 (ix1 j)
    = (∑ k : Fin 256, relu (dense (fun d => relu (dense (pixel x0 r) x1 x2 d)) x3 x4 k) * x5 (ix2 j k)) + x6 (ix1 j)
  refine congrArg (fun s => s + x6 (ix1 j)) (Finset.sum_congr rfl fun k _ => ?_)
  have el : lidx_main_v14 (ix2 r j) k = ix2 r k := funext fun a => Fin.ext (by match a with | ⟨0, _⟩ => rfl | ⟨1, _⟩ => rfl)
  have er : ridx_main_v14 (ix2 r j) k = ix2 k j := funext fun a => Fin.ext (by match a with | ⟨0, _⟩ => rfl | ⟨1, _⟩ => rfl)
  rw [el, er, h2_apply, w3t_apply]

/-! ## The log-softmax stages -/

/-- The row maximum the reference subtracts, at row `r`: the maximum from −∞ of the row's logits (taken from −∞, then
    once more the larger of it and −∞). -/
theorem rowmax_apply (r : Fin 32768) :
    val_main_call2_v2 (F := Ideal) x0 x1 x2 x3 x4 x5 x6 (ix1 r)
      = rowMax (fun k => val_main_v17 (F := Ideal) x0 x1 x2 x3 x4 x5 x6 (ix2 r k)) := by
  rw [val_main_call2_v2_apply, val_main_call2_v1_apply, val_main_call2_cst_0_apply]
  unfold val_main_call2_v0
  generalize val_main_v17 (F := Ideal) x0 x1 x2 x3 x4 x5 x6 = L
  have hred := Host.reduce_eq_fold_single (α := Ideal .f32) (s := S32768x10) (t := S32768) (u := S_)
    (FloatOps.maximumf (F := Ideal) (φ := .f32)) L (val_main_call2_cst (F := Ideal))
    reducesTo_S32768x10_S32768_d1 (by decide) h_S_ (ix1 r)
  rw [hred]
  have hl : (L ∘ Shape.Reduces.lift (by decide : S32768x10.Reduces [1] S32768) (ix1 r)) = fun k : Fin 10 => L (ix2 r k) :=
    funext fun k => congrArg L (funext fun a => Fin.ext (by match a with | ⟨0, _⟩ => rfl | ⟨1, _⟩ => rfl))
  rw [hl]
  exact max_init_fold (Ideal.ofBits .f32 0xFF800000#32) (fun k => L (ix2 r k))

/-- The shifted logits at (r, k). -/
theorem shifted_apply (r : Fin 32768) (k : Fin 10) :
    val_main_call2_v5 (F := Ideal) x0 x1 x2 x3 x4 x5 x6 (ix2 r k)
      = val_main_v17 (F := Ideal) x0 x1 x2 x3 x4 x5 x6 (ix2 r k) - rowMax (fun k' => val_main_v17 (F := Ideal) x0 x1 x2 x3 x4 x5 x6 (ix2 r k')) := by
  rw [val_main_call2_v5_apply, val_main_call2_v4_apply, val_main_call2_v3_apply]
  have e : idx_main_call2_v3 (idx_main_call2_v4 (ix2 r k)) = ix1 r := funext fun a => Fin.ext (by match a with | ⟨0, _⟩ => rfl)
  rw [e, rowmax_apply]
  rfl

/-- The result at (r, j) is the log-softmax of row `r` of the logits. -/
theorem out_apply (r : Fin 32768) (j : Fin 10) :
    val_main_v18 (F := Ideal) x0 x1 x2 x3 x4 x5 x6 (ix2 r j)
      = logSoftmax (fun k => val_main_v17 (F := Ideal) x0 x1 x2 x3 x4 x5 x6 (ix2 r k)) j := by
  rw [val_main_v18_apply, val_main_call2_v10_apply, val_main_call2_v9_apply, val_main_call2_v8_apply,
    val_main_call2_v7_apply, val_main_call2_cst_1_apply, shifted_apply]
  have hs : ∀ k : Fin 10, val_main_call2_v6 (F := Ideal) x0 x1 x2 x3 x4 x5 x6 (idx_main_call2_v7 (idx_main_call2_v8 (idx_main_call2_v10 (ix2 r j))) k)
      = Ideal.exp (val_main_v17 (F := Ideal) x0 x1 x2 x3 x4 x5 x6 (ix2 r k) - rowMax (fun k' => val_main_v17 (F := Ideal) x0 x1 x2 x3 x4 x5 x6 (ix2 r k'))) := fun k => by
    have e : idx_main_call2_v7 (idx_main_call2_v8 (idx_main_call2_v10 (ix2 r j))) k = ix2 r k :=
      funext fun a => Fin.ext (by match a with | ⟨0, _⟩ => rfl | ⟨1, _⟩ => rfl)
    rw [e, val_main_call2_v6_apply, shifted_apply]
    rfl
  rw [Finset.sum_congr rfl fun k _ => hs k]
  show (_ - _) - Ideal.log (Ideal.ofBits .f32 0x00000000#32 + _) = _
  rw [Ideal.ofBits_zero_f32, zero_add]
  rfl

/-! ## The whole array -/

/-- The reference's result is `G` of the argument arrays. -/
theorem ref_eq : val_main_v18 (F := Ideal) x0 x1 x2 x3 x4 x5 x6 = G x0 x1 x2 x3 x4 x5 x6 := by
  funext i
  obtain ⟨r, j, rfl⟩ : ∃ (r : Fin 32768) (j : Fin 10), i = ix2 r j := ⟨i 0, i 1, eq_ix2 i⟩
  rw [out_apply, G_ix2]
  unfold out
  exact congrArg (fun L => logSoftmax L j) (funext fun k => logits_apply x0 x1 x2 x3 x4 x5 x6 r k)

end Cert.ReferenceIdeal.RefValue

end
-- ==== Proof.lean ====
/-
  A three-layer perceptron with a log-softmax, computed by one blocked kernel and by plain array operations.

  Both programs take 32768 images of 28 × 28 pixels and three weight matrices with their biases, and return, for each
  image, the log-softmax of `W3 · relu (W2 · relu (W1 · x + b1) + b2) + b3`. On the extended reals, where every float
  operation is the exact one and a change of float format is the identity, both compute the one function `MlpSpec.G` of
  the argument arrays (Proof/Spec.lean):
  * the reference, stage by stage (Proof/RefIsSpec.lean): its host products contract an image row with a row of a weight
    matrix, and its extra "larger of −∞ and the row maximum" changes nothing;
  * the kernel, one block of 2048 images per grid point (Proof/KernelRow.lean, Proof/KernelBlocks.lean): its products
    into a zero accumulator are the same inner products, read through the transposed weight arrays the host prepared,
    and the sixteen blocks it writes back tile the result array.
  No law used needs finiteness: the two sides apply the same operations in the same order to the same entries, so the
  precondition is never opened. The kernel's idealization rewrote nothing, so there is nothing to preserve.
-/
import proofs.«157705_j30064771072596_2_alg».proof.Defs
import proofs.«157705_j30064771072596_2_alg».proof.Proof.Gen.Kernel
import proofs.«157705_j30064771072596_2_alg».proof.Proof.Gen.Kernel.Skeleton
import proofs.«157705_j30064771072596_2_alg».proof.Proof.Gen.Kernel.Launch
import proofs.«157705_j30064771072596_2_alg».proof.Proof.Gen.Kernel.Points
import proofs.«157705_j30064771072596_2_alg».proof.Proof.Gen.Kernel.Frame
import proofs.«157705_j30064771072596_2_alg».proof.Proof.Gen.KernelIdeal
import proofs.«157705_j30064771072596_2_alg».proof.Proof.Gen.KernelIdeal.Skeleton
import proofs.«157705_j30064771072596_2_alg».proof.Proof.Gen.KernelIdeal.Launch
import proofs.«157705_j30064771072596_2_alg».proof.Proof.Gen.KernelIdeal.Points
import proofs.«157705_j30064771072596_2_alg».proof.Proof.Gen.KernelIdeal.Frame
import proofs.«157705_j30064771072596_2_alg».proof.Proof.Gen.ReferenceIdeal
import proofs.«157705_j30064771072596_2_alg».proof.Proof.Gen.Pre_finite_inputs
import proofs.«157705_j30064771072596_2_alg».proof.Proof.Gen.KernelIdeal.Value
import proofs.«157705_j30064771072596_2_alg».proof.Proof.RefRead
import proofs.«157705_j30064771072596_2_alg».proof.Proof.LibPlainContract
import proofs.«157705_j30064771072596_2_alg».proof.Proof.KernelBlocks
import proofs.«157705_j30064771072596_2_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array ends at `G` of its arguments (the blocks cover
    the array) and the reference's at `G` of its own (stage by stage): the same array. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
